-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S1000000 : Shape := ⟨1, ![1000000]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1000000 : S_.BroadcastsInDim S1000000 (![] : Fin 0 → Fin S1000000.rank)
  reducesTo_S1000000_S_d0 : S1000000.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S100000x256 .f32) (main_arg1 : FVec F S256x64 .f32) (main_arg2 : FVec F S1000000 .f32) (main_arg3 : FVec F S1 .f32) (main_arg4 : IVec S1000000 32) (main_arg5 : IVec S1000000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S100000x256 : Shape := ⟨2, ![100000, 256]⟩
abbrev S256x64 : Shape := ⟨2, ![256, 64]⟩
abbrev S1000000 : Shape := ⟨1, ![1000000]⟩
abbrev S1 : Shape := ⟨1, ![1]⟩
abbrev S100000x64 : Shape := ⟨2, ![100000, 64]⟩
abbrev S5000x256 : Shape := ⟨2, ![5000, 256]⟩
abbrev S5000x64 : Shape := ⟨2, ![5000, 64]⟩
abbrev S1000000x1 : Shape := ⟨2, ![1000000, 1]⟩
abbrev S_ : Shape := ⟨0, ![]⟩
abbrev S1000000x64 : Shape := ⟨2, ![1000000, 64]⟩
abbrev S1x1 : Shape := ⟨2, ![1, 1]⟩

abbrev nBuf : Space → Nat
  | .hbm => 24
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S1000000, .f32⟩
  | .hbm, ⟨3, _⟩ => ⟨S1, .f32⟩
  | .hbm, ⟨4, _⟩ => ⟨S1000000, .i32⟩
  | .hbm, ⟨5, _⟩ => ⟨S1000000, .i32⟩
  | .hbm, ⟨6, _⟩ => ⟨S100000x64, .f32⟩
  | .hbm, ⟨7, _⟩ => ⟨S1000000x1, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S1000000x64, .f32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1, .f32⟩
  | .local _ .vmem, ⟨8, _⟩ => ⟨S5000x64, .f32⟩
  | .local _ .vmem, ⟨9, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S5000x64_S5000x64 : S5000x64.ShapeCasts S5000x64
  inb_S1_S1_0 : ∀ a, (![0] : Fin 1 → Nat) a + S1.size a ≤ S1.size a
  h_S1 : 0 < S1.numel
  shapeCasts_S1_S1x1 : S1.ShapeCasts S1x1
  broadcasts_S1x1_S5000x64 : S1x1.Broadcasts S5000x64
  dot_S5000x256_S256x64_S5000x64_1_0_0_1_n_n_wf : DotDims.WF S5000x256 S256x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1.size a ≤ S1.size a
  hwx1_1 : ∀ i : grid1.Coords, EltTy.bits .f32 = 32 ∨ (Rect.block (s := S1) S1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S1000000 : Shape := ⟨1, ![1000000]⟩
abbrev S1 : Shape := ⟨1, ![1]⟩
abbrev S100000x64 : Shape := ⟨2, ![100000, 64]⟩
abbrev S1000000x1 : Shape := ⟨2, ![1000000, 1]⟩
abbrev S_ : Shape := ⟨0, ![]⟩
abbrev S1000000x64 : Shape := ⟨2, ![1000000, 64]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S1000000, .f32⟩
  | .hbm, ⟨3, _⟩ => ⟨S1, .f32⟩
  | .hbm, ⟨4, _⟩ => ⟨S1000000, .i32⟩
  | .hbm, ⟨5, _⟩ => ⟨S1000000, .i32⟩
  | .hbm, ⟨6, _⟩ => ⟨S100000x64, .f32⟩
  | .hbm, ⟨7, _⟩ => ⟨S1000000x1, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S1000000x64, .f32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .i1⟩
  | .hbm, ⟨26, _⟩ => ⟨S1x1, .f32⟩
  | .hbm, ⟨27, _⟩ => ⟨S100000x64, .f32⟩
  | .hbm, ⟨28, _⟩ => ⟨S100000x64, .f32⟩
  | .hbm, ⟨29, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x64_0_1 : S1x1.BroadcastsInDim S100000x64 (![0, 1] : Fin 2 → Fin S100000x64.rank)
  dot_S100000x256_S256x64_S100000x64_1_0_0_1_n_n_wf : DotDims.WF S100000x256 S256x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.KernelRun.lean ====
/-
  The run of the two-call program with its result array named.

  The program is three segments: the first call (the dense product, written to the buffer of the hidden features), a
  stretch of host operations (gather of hidden rows, scaling by the edge weights, scatter-add by destination row) and
  the second call (the slope applied to the aggregate).  Every weakly fair execution terminates, and in every final
  state the result buffer holds what the second call's write-backs leave of the aggregate buffer as that call found it,
  while the six argument arrays are as launched.  The contents at the segment boundaries are the fold of the generated
  frame module; the only thing added here is that the last thread state is read at the result buffer too.
-/
import proofs.«161027_j6648609374671_1_alg».proof.Proof.Gen.KernelIdeal.Frame

set_option maxRecDepth 16384

noncomputable section

namespace Cert.KernelIdeal.TwoCalls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the third window's array of the second call, so at the last boundary it holds that call's
    folded write-backs. -/
theorem result_at_exit (c : Dev nD) :
    W3 m ρ c (Proc.devRef .tc main_v14) = (dat1 (V2 m ρ) c).arrAt 2 cfg1.N :=
  W3_arr m ρ c 2

set_option backward.isDefEq.respectTransparency.types false in
/-- Every weakly fair execution terminates; the result buffer ends at the second call's folded write-backs and the
    arguments end as launched. -/
theorem run : θ_run defs (onTc (τ := τ) (main (F := F))) ⟨m, fun _ => 0, ρ⟩ (fun r => ∀ c : Dev nD,
      r.2.mem ((c.tc : Thread nD τ).loc main_v14) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v14 (by decide))).trans (result_at_exit m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.TwoCalls

end
-- ==== Proof.Spec.lean ====
/-
  What the layer computes, as functions of whole arrays.

  `product X W` is the matrix product: entry `(r, q)` is the sum over `k` of `X (r, k) * W (k, q)`, on the extended
  reals.  `slope A a` applies the one-parameter rectifier entry by entry, at any float instance: an entry above zero is
  kept, any other entry is multiplied by the single slope `a 0`.
-/
import Idealize.ShloMosaic.Lib.ValueIdx
import Idealize.ShloMosaic.PureOps.Ideal

noncomputable section

open scoped BigOperators

namespace Cert.SparseLayer

open Idealize.ShloMosaic Idealize.ShloMosaic.ValueIdx

/-- Entry `(r, k)` of the left factor, for the result entry `i = (r, q)`. -/
abbrev rowEntry (i : (⟨2, ![100000, 64]⟩ : Shape).Idx) (k : Fin 256) : (⟨2, ![100000, 256]⟩ : Shape).Idx :=
  ix2 (⟨(i 0).val, (i 0).isLt⟩ : Fin 100000) k

/-- Entry `(k, q)` of the right factor, for the result entry `i = (r, q)`. -/
abbrev colEntry (i : (⟨2, ![100000, 64]⟩ : Shape).Idx) (k : Fin 256) : (⟨2, ![256, 64]⟩ : Shape).Idx :=
  ix2 k (⟨(i 1).val, (i 1).isLt⟩ : Fin 64)

/-- The matrix product on the extended reals: entry `(r, q)` is `∑ₖ X (r, k) * W (k, q)`. -/
def product (X : (⟨2, ![100000, 256]⟩ : Shape).Idx → Ideal .f32) (W : (⟨2, ![256, 64]⟩ : Shape).Idx → Ideal .f32) :
    (⟨2, ![100000, 64]⟩ : Shape).Idx → Ideal .f32 :=
  fun i => ∑ k : Fin 256, X (rowEntry i k) * W (colEntry i k)

variable {F : FTy → Type} [FloatOps F]

/-- The rectifier with one shared slope, entry by entry: `A i` where it is above zero, `a 0 * A i` elsewhere. -/
def slope (A : (⟨2, ![100000, 64]⟩ : Shape).Idx → F .f32) (a : (⟨1, ![1]⟩ : Shape).Idx → F .f32) :
    (⟨2, ![100000, 64]⟩ : Shape).Idx → F .f32 :=
  fun i => Scalar.select (FloatOps.cmpf .ogt (A i) (FloatOps.ofBits .f32 0x00000000#32)) (A i)
    (FloatOps.mulf (a (ix1 (0 : Fin 1))) (A i))

/-- A one-entry array has one index. -/
theorem eq_ix1_zero (y : (⟨1, ![1]⟩ : Shape).Idx) : y = ix1 (0 : Fin 1) :=
  funext fun d => match d with
    | ⟨0, _⟩ => Fin.ext (by
        have h : (y ⟨0, Nat.one_pos⟩).val < 1 := (y ⟨0, Nat.one_pos⟩).isLt
        show (y ⟨0, Nat.one_pos⟩).val = 0
        omega)

end Cert.SparseLayer

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.ProductCall.lean ====
/-
  The first call: the hidden features end as the matrix product of the two argument arrays.

  The grid has 20 points; point `t` stages rows `5000 t … 5000 t + 4999` of the left factor (all 256 columns) and the
  whole right factor, and writes the same rows of the product (all 64 columns).  On the extended reals the narrowing of
  the two blocks to the shorter float format is the identity and a product accumulated into the zero matrix is the plain
  sum over the contracted index, so entry `(p, q)` of what point `t` writes back is
  `∑ₖ X (5000 t + p, k) * W (k, q)`: block `t` of `product X W`.  The 20 blocks cover the 100000 rows.
-/
import proofs.«161027_j6648609374671_1_alg».proof.Proof.Gen.KernelIdeal.Frame
import proofs.«161027_j6648609374671_1_alg».proof.Proof.Spec
import proofs.«161027_j6648609374671_1_alg».proof.Proof.LibPlainMatmul
import Idealize.ShloMosaic.Lib.Pipeline.Value
import Idealize.ShloMosaic.Lib.ValueIdx

set_option maxRecDepth 16384

noncomputable section

open scoped BigOperators

namespace Cert.KernelIdeal.ProductCall

open Cert.KernelIdeal Cert.KernelIdeal.Gen Cert.SparseLayer
open Idealize.ShloMosaic Idealize.ShloMosaic.TcCoe Idealize.SL.Sem Idealize.ShloMosaic.ValueIdx
open Idealize.ShloMosaic.Pipeline (Dat)

/-! ## The body's stored value at an index -/

/-- Entry `(p, q)` of what the body stores, from the two loaded blocks: `∑ₖ x (p, k) * w (k, q)`. -/
theorem stored_apply (x0 : Vec Ideal S5000x256 .f32) (x2 : Vec Ideal S256x64 .f32) (p : Fin 5000) (q : Fin 64) :
    k0_pay1 x0 x2 (ix2 p q) = ∑ k : Fin 256, x0 (ix2 p k) * x2 (ix2 k q) := by
  unfold k0_pay1
  exact PlainMatmul.matmul_zero_apply dot_S5000x256_S256x64_S5000x64_1_0_0_1_n_n rfl rfl rfl rfl rfl rfl none
    (truncf .bf16 x0 bitsLt_bf16_f32) (truncf .bf16 x2 bitsLt_bf16_f32) p q

/-! ## The blocks -/

theorem zeros2 : (![0, 0] : Fin 2 → Nat) = fun _ => 0 := funext fun a => by fin_cases a <;> rfl

/-- The printed index maps over the 20 points: the left factor's window moves down with the product's window and
    spans all its columns; the right factor's window stays at its one block; the product's block column is 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block row below 20 is some point's. -/
theorem index_onto : ∀ q : Fin 20, ∃ t : Fin cfg0.N, win0_2.index t (0 : Fin 2) = q.val :=
  (by decide +kernel : ∀ q : Fin 20, ∃ t : Fin grid0.N, win0_2.index t (0 : Fin 2) = q.val)

variable (V : (c : Dev nD) → (b : Ref sig .tc) → Buf (Elt Ideal) ((c : Thread nD τ).loc b))

/-- What point `t` writes back is block `t` of the product of the two arrays as the call finds them. -/
theorem flushed_eq (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero zeros2]
  simp only [View.ld_unit_zero (S := S5000x256) zeros2, View.ld_unit_zero (S := S256x64) zeros2]
  obtain ⟨e0, e1, e2, e3, e4⟩ := index_facts t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = product (V c main_arg0) (V c main_arg1) (((cfg0.win 2).blk t).view.emb (ix2 p q))
  refine (stored_apply (iblk0 V c 0 t) (iblk0 V c 1 t) p q).trans ?_
  unfold product
  refine Finset.sum_congr rfl fun k _ => ?_
  have hx : ((cfg0.win 0).blk t).view.emb (ix2 p k) = rowEntry (((cfg0.win 2).blk t).view.emb (ix2 p q)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hw : ((cfg0.win 1).blk t).view.emb (ix2 k q) = colEntry (((cfg0.win 2).blk t).view.emb (ix2 p q)) k := by
    funext a; apply Fin.ext
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega
  have hX : iblk0 V c 0 t (ix2 p k)
      = (V c main_arg0 : S100000x256.Idx → Ideal .f32) (rowEntry (((cfg0.win 2).blk t).view.emb (ix2 p q)) k) :=
    congrArg (V c main_arg0) hx
  have hW : iblk0 V c 1 t (ix2 k q)
      = (V c main_arg1 : S256x64.Idx → Ideal .f32) (colEntry (((cfg0.win 2).blk t).view.emb (ix2 p q)) k) :=
    congrArg (V c main_arg1) hw
  exact congrArg₂ (fun a b : Ideal .f32 => a * b) hX hW

/-- An index of the product array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row `r` of the product is in the block of the point whose block row is `r / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, q0⟩ := index_onto ⟨(i 0).val / 5000, by omega⟩
  obtain ⟨-, -, -, -, q1⟩ := index_facts t
  have q0' : win0_2.index t (0 : Fin 2) = (i 0).val / 5000 := q0
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE HIDDEN FEATURES after the call: the product of the two arrays as the call finds them. -/
theorem final (c : Dev nD) :
    (dat0 V c).arrAt 2 cfg0.N = product (V c main_arg0) (V c main_arg1) :=
  (dat0 V c).arrAt_eq_of_cover 2 (product (V c main_arg0) (V c main_arg1)) (fun t _ => flushed_eq V c t) covered

end Cert.KernelIdeal.ProductCall

end
-- ==== Proof.SlopeCall.lean ====
/-
  The second call: the aggregate buffer, read block by block, becomes `slope` of itself.

  The grid has 20 points; point `t` stages rows `5000 t … 5000 t + 4999` of the aggregate (all 64 columns) and the one
  slope, and writes the same rows of the result.  The body keeps an entry above zero and multiplies any other by the
  slope, so what point `t` writes back is block `t` of `slope A a`; the 20 blocks cover the 100000 rows, hence the
  result array ends holding `slope A a`, where `A` and `a` are the aggregate and the slope as the call finds them.
  Nothing here depends on the float instance.
-/
import proofs.«161027_j6648609374671_1_alg».proof.Proof.Gen.KernelIdeal.Frame
import proofs.«161027_j6648609374671_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.SlopeCall

open Cert.KernelIdeal Cert.KernelIdeal.Gen Cert.SparseLayer
open Idealize.ShloMosaic Idealize.ShloMosaic.TcCoe Idealize.SL.Sem Idealize.ShloMosaic.ValueIdx
open Idealize.ShloMosaic.Pipeline (Dat)

variable {F : FTy → Type} [FloatOps F]

/-! ## The body's stored value at an index -/

/-- The slope, cast to one row and broadcast over the block, reads the one slope at every entry. -/
theorem slope_splat_apply (x1 : Vec F S1 .f32) (j : S5000x64.Idx) :
    broadcastTo S5000x64 (shapeCast S1x1 x1 shapeCasts_S1_S1x1) broadcasts_S1x1_S5000x64 j = x1 (ix1 (0 : Fin 1)) :=
  (broadcastTo_apply (shapeCast S1x1 x1 shapeCasts_S1_S1x1) broadcasts_S1x1_S5000x64 j (ix2 (0 : Fin 1) (0 : Fin 1))
    (fun a => match a with
      | ⟨0, _⟩ => by show (0 : Nat) = if (1 : Nat) = 1 then 0 else _; rw [if_pos rfl]
      | ⟨1, _⟩ => by show (0 : Nat) = if (1 : Nat) = 1 then 0 else _; rw [if_pos rfl])).trans
    (shapeCast_a_1a_apply x1 shapeCasts_S1_S1x1 (0 : Fin 1) (0 : Fin 1))

/-- Entry `j` of what the body stores: the loaded entry if it is above zero, the slope times it otherwise. -/
theorem stored_apply (x0 : Vec F S5000x64 .f32) (x1 : Vec F S1 .f32) (j : S5000x64.Idx) :
    k1_pay1 x0 x1 j = Scalar.select (FloatOps.cmpf .ogt (x0 j) (FloatOps.ofBits .f32 0x00000000#32)) (x0 j)
      (FloatOps.mulf (x1 (ix1 (0 : Fin 1))) (x0 j)) := by
  unfold k1_pay1
  rw [shapeCast_self]
  show Scalar.select (FloatOps.cmpf .ogt (x0 j) (FloatOps.ofBits .f32 0x00000000#32)) (x0 j)
    (FloatOps.mulf (broadcastTo S5000x64 (shapeCast S1x1 x1 shapeCasts_S1_S1x1) broadcasts_S1x1_S5000x64 j) (x0 j)) = _
  rw [slope_splat_apply]

/-! ## The blocks -/

theorem zeros2 : (![0, 0] : Fin 2 → Nat) = fun _ => 0 := funext fun a => by fin_cases a <;> rfl
theorem zeros1 : (![0] : Fin 1 → Nat) = fun _ => 0 := funext fun a => by fin_cases a; rfl

/-- The printed index maps over the 20 points: the aggregate's window moves with the result's window, whose block row
    is the point and whose block column is 0; the slope's window stays at its one block. -/
theorem index_facts : ∀ t : Fin cfg1.N, win1_0.index t (0 : Fin 2) = win1_2.index t (0 : Fin 2)
    ∧ win1_0.index t (1 : Fin 2) = win1_2.index t (1 : Fin 2)
    ∧ win1_1.index t (0 : Fin 1) = 0
    ∧ win1_2.index t (1 : Fin 2) = 0 :=
  (by decide +kernel : ∀ t : Fin grid1.N, _)

/-- Every block row below 20 is some point's. -/
theorem index_onto : ∀ q : Fin 20, ∃ t : Fin cfg1.N, win1_2.index t (0 : Fin 2) = q.val :=
  (by decide +kernel : ∀ q : Fin 20, ∃ t : Fin grid1.N, win1_2.index t (0 : Fin 2) = q.val)

variable (V : (c : Dev nD) → (b : Ref sig .tc) → Buf (Elt F) ((c : Thread nD τ).loc b))

/-- What point `t` writes back is block `t` of `slope` of the aggregate and the slope as the call finds them. -/
theorem flushed_eq (c : Dev nD) (t : Fin cfg1.N) :
    (dat1 V c).flushed 2 t = ((cfg1.win 2).blk t).view.read (Elt F) (slope (V c main_v13) (V c main_arg3)) := by
  show (cfg1.win 2).cut (grid1.coords t) ((dat1 V c).after 2 t) = _
  rw [after1_2]
  unfold out1_2
  rw [View.canon_unit_zero zeros2]
  simp only [View.ld_unit_zero (S := S5000x64) zeros2, View.ld_unit_zero (S := S1) zeros1]
  obtain ⟨e0, e1, e2, e3⟩ := index_facts t
  funext j
  show k1_pay1 (iblk1 V c 0 t) (iblk1 V c 1 t) j = slope (V c main_v13) (V c main_arg3) (((cfg1.win 2).blk t).view.emb j)
  refine (stored_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  show Scalar.select (FloatOps.cmpf .ogt (V c main_v13 (((cfg1.win 0).blk t).view.emb j)) (FloatOps.ofBits .f32 0x00000000#32))
      (V c main_v13 (((cfg1.win 0).blk t).view.emb j))
      (FloatOps.mulf (V c main_arg3 (((cfg1.win 1).blk t).view.emb (ix1 (0 : Fin 1)))) (V c main_v13 (((cfg1.win 0).blk t).view.emb j)))
    = Scalar.select (FloatOps.cmpf .ogt (V c main_v13 (((cfg1.win 2).blk t).view.emb j)) (FloatOps.ofBits .f32 0x00000000#32))
      (V c main_v13 (((cfg1.win 2).blk t).view.emb j))
      (FloatOps.mulf (V c main_arg3 (ix1 (0 : Fin 1))) (V c main_v13 (((cfg1.win 2).blk t).view.emb j)))
  rw [h0, eq_ix1_zero (((cfg1.win 1).blk t).view.emb (ix1 (0 : Fin 1)))]

/-- An index of the result array is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v14).slice (win1_2.rect t)).set ↔ _
  rw [View.set_slice_whole, Rect.mem_set_unit]
  exact Iff.rfl

/-- Row `r` of the result is in the block of the point whose block row is `r / 5000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, q0⟩ := index_onto ⟨(i 0).val / 5000, by omega⟩
  obtain ⟨-, -, -, q1⟩ := index_facts t
  have q0' : win1_2.index t (0 : Fin 2) = (i 0).val / 5000 := q0
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE RESULT ARRAY after the call: `slope` of the aggregate and the slope as the call finds them. -/
theorem final (c : Dev nD) :
    (dat1 V c).arrAt 2 cfg1.N = slope (V c main_v13) (V c main_arg3) :=
  (dat1 V c).arrAt_eq_of_cover 2 (slope (V c main_v13) (V c main_arg3)) (fun t _ => flushed_eq V c t) covered

end Cert.KernelIdeal.SlopeCall

end
-- ==== Proof.HostStretch.lean ====
/-
  Between the two calls: the edge aggregation, as one function of the hidden features and the three edge arrays.

  Each edge `e` has a source node `src e`, a destination node `dst e` and a weight `w e`.  A negative source is read from
  the end (`src e + 100000`); row `e` of the messages is `w e` times row `src e` of the hidden features; the aggregate
  adds, into a zero matrix, row `e` of the messages to row `dst e`.  The gather and the scatter-add stay the host's own
  operations, unopened: the same term stands on both sides of the certificate.  At the second call's entry the aggregate
  buffer holds `aggregate` of the first call's result buffer and the edge arrays as launched, and the slope's buffer is
  as launched.
-/
import proofs.«161027_j6648609374671_1_alg».proof.Proof.Gen.KernelIdeal.Frame
import Idealize.ShloMosaic.Lib.StableHlo.Run

set_option maxRecDepth 16384

noncomputable section

namespace Cert.KernelIdeal.HostStretch

open Cert.KernelIdeal Cert.KernelIdeal.Gen
open Idealize.ShloMosaic Idealize.ShloMosaic.TcCoe Idealize.SL.Sem Idealize.ShloMosaic.StableHlo

variable {F : FTy → Type} [FloatOps F]

/-- The edge aggregation: gather the hidden rows by source node (a negative source counted from the end), scale row
    `e` by the weight of edge `e`, and add the rows into a zero matrix by destination node. -/
def aggregate (H : (⟨S100000x64, .f32⟩ : BufTy).Contents (Elt F)) (w : (⟨S1000000, .f32⟩ : BufTy).Contents (Elt F))
    (dst src : (⟨S1000000, .i32⟩ : BufTy).Contents (Elt F)) : (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (mulf (broadcastInDim S1000000x64 ![0, 1] bcast_S1000000x1_S1000000x64_0_1 (broadcastInDim S1000000x1 ![0] bcast_S1000000_S1000000x1_0 w))
      (Host.gather gather_S100000x64_S1000000x1_S1000000x64_1_0_n_n_0_1_164 H
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))

variable (m : (ℓ : Loc nD τ sig) → Buf (Elt F) ℓ) (ρ : Dev nD → PrngReg)

/-- The aggregate buffer at the second call's entry, over the buffers as the first call leaves them. -/
theorem aggregate_after_first (c : Dev nD) :
    V2 m ρ c main_v13 = aggregate (W1 m ρ c (Proc.devRef .tc main_v0)) (W1 m ρ c (Proc.devRef .tc main_arg2))
      (W1 m ρ c (Proc.devRef .tc main_arg4)) (W1 m ρ c (Proc.devRef .tc main_arg5)) := by
  show StableHlo.after hostOps1 (W1 m ρ c) (Proc.devRef .tc main_v13) = _
  after_results
  rfl

/-- The aggregate buffer at the second call's entry: `aggregate` of the first call's folded write-backs and the edge
    arrays as launched (the first call touches none of the three). -/
theorem aggregate_at_entry (c : Dev nD) :
    V2 m ρ c main_v13 = aggregate ((dat0 (V0 m ρ) c).arrAt 2 cfg0.N) (m ((c.tc : Thread nD τ).loc main_arg2))
      (m ((c.tc : Thread nD τ).loc main_arg4)) (m ((c.tc : Thread nD τ).loc main_arg5)) := by
  rw [aggregate_after_first, W1_arr m ρ c 2, W1_of_ne m ρ c main_arg2 (by decide), W1_of_ne m ρ c main_arg4 (by decide),
    W1_of_ne m ρ c main_arg5 (by decide)]

/-- The slope's buffer at the second call's entry is as launched: no host operation writes it and the first call does
    not stage it. -/
theorem slope_at_entry (c : Dev nD) : V2 m ρ c main_arg3 = m ((c.tc : Thread nD τ).loc main_arg3) :=
  ((W3_arr m ρ c 1).trans (((dat1 (V2 m ρ) c).arrAt_in 1 rfl _).trans (A_eq1 (V2 m ρ) c 1))).symm.trans (W3_main_arg3 m ρ c)

/-- The two factors at the first call's entry are as launched. -/
theorem left_at_launch (c : Dev nD) : V0 m ρ c main_arg0 = m ((c.tc : Thread nD τ).loc main_arg0) := rfl
theorem right_at_launch (c : Dev nD) : V0 m ρ c main_arg1 = m ((c.tc : Thread nD τ).loc main_arg1) := rfl

end Cert.KernelIdeal.HostStretch

end
-- ==== Proof.KernelValue.lean ====
/-
  The kernel's result as one function of the arguments, on the extended reals.

  The first call leaves the product of the two factors in the hidden features' buffer; the host stretch turns that into
  the edge aggregate; the second call leaves `slope` of the aggregate and the slope parameter in the result buffer.
  Composed: the result is `slope (aggregate (product X W) w dst src) a` of the six arrays as launched.
-/
import proofs.«161027_j6648609374671_1_alg».proof.Proof.KernelRun
import proofs.«161027_j6648609374671_1_alg».proof.Proof.ProductCall
import proofs.«161027_j6648609374671_1_alg».proof.Proof.SlopeCall
import proofs.«161027_j6648609374671_1_alg».proof.Proof.HostStretch

noncomputable section

namespace Cert.KernelIdeal.TwoCalls

open Cert.KernelIdeal Cert.KernelIdeal.Gen Cert.SparseLayer Cert.KernelIdeal.HostStretch
open Idealize.ShloMosaic Idealize.ShloMosaic.TcCoe Idealize.SL.Sem

variable (m : (ℓ : Loc nD τ sig) → Buf (Elt Ideal) ℓ) (ρ : Dev nD → PrngReg)

/-- What the second call's write-backs leave, in terms of the arrays as launched. -/
theorem result_value (c : Dev nD) :
    (dat1 (V2 m ρ) c).arrAt 2 cfg1.N
      = slope (aggregate (product (m ((c.tc : Thread nD τ).loc main_arg0)) (m ((c.tc : Thread nD τ).loc main_arg1)))
          (m ((c.tc : Thread nD τ).loc main_arg2)) (m ((c.tc : Thread nD τ).loc main_arg4)) (m ((c.tc : Thread nD τ).loc main_arg5)))
        (m ((c.tc : Thread nD τ).loc main_arg3)) := by
  rw [SlopeCall.final (V2 m ρ) c, aggregate_at_entry m ρ c, slope_at_entry m ρ c, ProductCall.final (V0 m ρ) c,
    left_at_launch m ρ c, right_at_launch m ρ c]

/-- Every weakly fair execution terminates with the result buffer at `slope (aggregate (product X W) w dst src) a` of the
    arrays as launched, and the arguments unchanged. -/
theorem run_value : θ_run defs (onTc (τ := τ) (main (F := Ideal))) ⟨m, fun _ => 0, ρ⟩ (fun r => ∀ c : Dev nD,
      r.2.mem ((c.tc : Thread nD τ).loc main_v14)
        = slope (aggregate (product (m ((c.tc : Thread nD τ).loc main_arg0)) (m ((c.tc : Thread nD τ).loc main_arg1)))
            (m ((c.tc : Thread nD τ).loc main_arg2)) (m ((c.tc : Thread nD τ).loc main_arg4)) (m ((c.tc : Thread nD τ).loc main_arg5)))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (run m ρ)

end Cert.KernelIdeal.TwoCalls

end
-- ==== Proof.RefValue.lean ====
/-
  The reference's result is the same function of the arguments.

  The reference computes the hidden features by one host matrix product, which on the extended reals is the sum over
  the contracted index (`product`); aggregates them over the edges by the same gather, scaling and scatter-add as the
  kernel's host stretch (`aggregate`, unopened); and applies the slope by a comparison with a zero matrix, a product
  with the slope broadcast to the matrix, and a selection — entry by entry `slope`.
-/
import proofs.«161027_j6648609374671_1_alg».proof.Proof.Gen.ReferenceIdeal.Read
import proofs.«161027_j6648609374671_1_alg».proof.Proof.Spec
import proofs.«161027_j6648609374671_1_alg».proof.Proof.HostStretch

noncomputable section

open scoped BigOperators

namespace Cert.ReferenceIdeal.RefValue

open Cert.ReferenceIdeal Cert.ReferenceIdeal.Gen Cert.ReferenceIdeal.Read Cert.SparseLayer
open Idealize.ShloMosaic Idealize.ShloMosaic.TcCoe Idealize.SL.Sem Idealize.ShloMosaic.ValueIdx

/-- The host matrix product on the extended reals is `product`. -/
theorem product_eq (x0 : (⟨S100000x256, .f32⟩ : BufTy).Contents (Elt Ideal)) (x1 : (⟨S256x64, .f32⟩ : BufTy).Contents (Elt Ideal)) :
    val_main_v0 (F := Ideal) x0 x1 = product x0 x1 := by
  funext i
  rw [val_main_v0_apply]
  unfold product
  refine Finset.sum_congr rfl fun k _ => ?_
  have el : lidx_main_v0 i k = rowEntry i k := funext fun a => Fin.ext (by
    match a with
    | ⟨0, _⟩ => rfl
    | ⟨1, _⟩ => rfl)
  have er : ridx_main_v0 i k = colEntry i k := funext fun a => Fin.ext (by
    match a with
    | ⟨0, _⟩ => rfl
    | ⟨1, _⟩ => rfl)
  rw [el, er]

variable {F : FTy → Type} [FloatOps F]

/-- The reference's last four operations, on any aggregate `A`: entry by entry `slope A a`. -/
theorem tail_eq (A : (⟨S100000x64, .f32⟩ : BufTy).Contents (Elt F)) (a : (⟨S1, .f32⟩ : BufTy).Contents (Elt F)) :
    select (cmpf .ogt A (val_main_v14 (F := F))) A (mulf (val_main_v17 (F := F) a) A) = slope A a := by
  funext i
  show Scalar.select (FloatOps.cmpf .ogt (A i) (val_main_v14 (F := F) i)) (A i) (FloatOps.mulf (val_main_v17 (F := F) a i) (A i))
    = Scalar.select (FloatOps.cmpf .ogt (A i) (FloatOps.ofBits .f32 0x00000000#32)) (A i) (FloatOps.mulf (a (ix1 (0 : Fin 1))) (A i))
  rw [val_main_v14_apply, val_main_cst_1_apply, val_main_v17_apply, val_main_v16_apply,
    eq_ix1_zero (idx_main_v16 (idx_main_v17 i))]

/-- The reference's aggregate is `aggregate` of its hidden features: the same host operations, the two programs'
    dimension records being the same lists. -/
theorem aggregate_eq (x0 : (⟨S100000x256, .f32⟩ : BufTy).Contents (Elt F)) (x1 : (⟨S256x64, .f32⟩ : BufTy).Contents (Elt F))
    (x2 : (⟨S1000000, .f32⟩ : BufTy).Contents (Elt F)) (x4 x5 : (⟨S1000000, .i32⟩ : BufTy).Contents (Elt F)) :
    val_main_v13 (F := F) x0 x1 x2 x4 x5 = Cert.KernelIdeal.HostStretch.aggregate (val_main_v0 (F := F) x0 x1) x2 x4 x5 := rfl

/-- THE REFERENCE'S RESULT on the extended reals: `slope (aggregate (product X W) w dst src) a`. -/
theorem result_eq (x0 : (⟨S100000x256, .f32⟩ : BufTy).Contents (Elt Ideal)) (x1 : (⟨S256x64, .f32⟩ : BufTy).Contents (Elt Ideal))
    (x2 : (⟨S1000000, .f32⟩ : BufTy).Contents (Elt Ideal)) (x3 : (⟨S1, .f32⟩ : BufTy).Contents (Elt Ideal))
    (x4 x5 : (⟨S1000000, .i32⟩ : BufTy).Contents (Elt Ideal)) :
    val_main_v19 (F := Ideal) x0 x1 x2 x3 x4 x5
      = slope (Cert.KernelIdeal.HostStretch.aggregate (product x0 x1) x2 x4 x5) x3 := by
  rw [← product_eq, ← aggregate_eq]
  exact tail_eq (val_main_v13 (F := Ideal) x0 x1 x2 x4 x5) x3

end Cert.ReferenceIdeal.RefValue

end
-- ==== Proof.lean ====
/-
  A graph-convolution layer with a one-parameter rectifier: the kernel and its reference compute one function.

  Both programs take node features `X` (100000 × 256), a weight matrix `W` (256 × 64), one million edges given by
  destination nodes `dst`, source nodes `src` and weights `w`, and one slope `a`.  Both compute the hidden features
  `X · W`, aggregate them over the edges (row `dst e` of the aggregate receives `w e` times row `src e` of the hidden
  features), and keep each entry above zero while multiplying every other entry by `a`.

  The kernel computes the product in a first call, 5000 rows at a time, with both factors narrowed to a shorter float
  format first, and applies the slope in a second call, again 5000 rows at a time; between the calls the edge
  aggregation is done by the same host operations as in the reference.  On the extended reals the narrowing is the
  identity and a block product accumulated into zero is the plain sum over the contracted index, so the first call's
  result is the reference's whole product; the aggregation is then the same term on both sides and is never opened;
  and the second call's body and the reference's comparison, product and selection are the same three float operations
  entry by entry.  No law of arithmetic beyond that is used, so the finiteness of the inputs is never needed.  The
  idealized kernel is the kernel's own text read on the extended reals (no operation was rewritten), so the
  preservation claim is the trivial one.
-/
import proofs.«161027_j6648609374671_1_alg».proof.Defs
import proofs.«161027_j6648609374671_1_alg».proof.Proof.Gen.Kernel
import proofs.«161027_j6648609374671_1_alg».proof.Proof.Gen.Kernel.Skeleton
import proofs.«161027_j6648609374671_1_alg».proof.Proof.Gen.Kernel.Launch
import proofs.«161027_j6648609374671_1_alg».proof.Proof.Gen.Kernel.Points
import proofs.«161027_j6648609374671_1_alg».proof.Proof.Gen.Kernel.Frame
import proofs.«161027_j6648609374671_1_alg».proof.Proof.Gen.KernelIdeal
import proofs.«161027_j6648609374671_1_alg».proof.Proof.Gen.KernelIdeal.Skeleton
import proofs.«161027_j6648609374671_1_alg».proof.Proof.Gen.KernelIdeal.Launch
import proofs.«161027_j6648609374671_1_alg».proof.Proof.Gen.KernelIdeal.Points
import proofs.«161027_j6648609374671_1_alg».proof.Proof.Gen.KernelIdeal.Frame
import proofs.«161027_j6648609374671_1_alg».proof.Proof.Gen.ReferenceIdeal
import proofs.«161027_j6648609374671_1_alg».proof.Proof.Gen.Pre_finite_inputs
import proofs.«161027_j6648609374671_1_alg».proof.Proof.Gen.ReferenceIdeal.Run
import proofs.«161027_j6648609374671_1_alg».proof.Proof.Gen.ReferenceIdeal.Read
import proofs.«161027_j6648609374671_1_alg».proof.Proof.KernelValue
import proofs.«161027_j6648609374671_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From memories that agree on the six arguments, both programs end with the result
    `slope (aggregate (product X W) w dst src) a` of those arguments. -/
theorem algebraic : Cert.algebraic_KernelIdeal_ReferenceIdeal := by
  intro m ρ m' ρ' _ hagree
  refine ⟨_, Cert.KernelIdeal.TwoCalls.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v19_eq _ _ _ _ _ _).trans (Cert.ReferenceIdeal.RefValue.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
